-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x64 : Shape := ⟨2, ![256, 64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S8192x256 .f32) (main_arg1 : FVec F S8192x256 .f32) (main_arg2 : FVec F S256x64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Kernel.lean ====
abbrev S8192x256 : Shape := ⟨2, ![8192, 256]⟩
abbrev S256x64 : Shape := ⟨2, ![256, 64]⟩
abbrev S8192x64 : Shape := ⟨2, ![8192, 64]⟩
abbrev S1024x256 : Shape := ⟨2, ![1024, 256]⟩
abbrev S1024x64 : Shape := ⟨2, ![1024, 64]⟩
abbrev S8192x8192 : Shape := ⟨2, ![8192, 8192]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩
abbrev S1x64 : Shape := ⟨2, ![1, 64]⟩
abbrev S1x2048 : Shape := ⟨2, ![1, 2048]⟩

abbrev nBuf : Space → Nat
  | .hbm => 6
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x64, .f32⟩
  | .hbm, ⟨3, _⟩ => ⟨S8192x64, .f32⟩
  | .hbm, ⟨4, _⟩ => ⟨S8192x64, .f32⟩
  | .hbm, ⟨5, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S256x64, .f32⟩
  | .local _ .vmem, ⟨3, _⟩ => ⟨S1024x64, .f32⟩
  | .local _ .vmem, ⟨4, _⟩ => ⟨S1024x64, .f32⟩
  | .local _ .vmem, ⟨5, _⟩ => ⟨S1024x256, .f32⟩
  | .local _ .vmem, ⟨6, _⟩ => ⟨S1024x256, .f32⟩
  | .local _ .vmem, ⟨7, _⟩ => ⟨S256x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S2048x64, .f32⟩
  | .local _ .vmem, ⟨13, _⟩ => ⟨S2048x64, .f32⟩
  | .local _ .vmem, ⟨14, _⟩ => ⟨S1024x2048, .f32⟩
  | .local _ .vmem, ⟨15, _⟩ => ⟨S1024x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S1024x64_S1024 : S1024x64.Reduces [1] S1024
  shapeCasts_S1024_S1024x1 : S1024.ShapeCasts S1024x1
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x256_S256x64_S1024x64_1_0_0_1_n_n_wf : DotDims.WF S1024x256 S256x64 S1024x64 [1] [0] [0] [1] [] []
  dot_S1x64_S2048x64_S1x2048_1_1_0_0_n_n_wf : DotDims.WF S1x64 S2048x64 S1x2048 [1] [1] [0] [0] [] []
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S8192x64.size a
  hwx2_1 : ∀ i : grid2.Coords, EltTy.bits .f32 = 32 ∨ (Rect.block (s := S8192x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S8192x8192.size a
  hwx2_2 : ∀ i : grid2.Coords, EltTy.bits .f32 = 32 ∨ (Rect.block (s := S8192x8192) S1024x2048.size (cc2_transform_2 i) (hinb2_2 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1x64_S2048x64_S1x2048_1_1_0_0_n_n : DotDims S1x64 S2048x64 S1x2048 where
  lhsContracting := [1]
  rhsContracting := [1]
  lhsNonContracting := [0]
  rhsNonContracting := [0]
  lhsBatch := []
  rhsBatch := []
  wf := dot_S1x64_S2048x64_S1x2048_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x256 : Shape := ⟨2, ![8192, 256]⟩
abbrev S256x64 : Shape := ⟨2, ![256, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S256x64, .f32⟩
  | .hbm, ⟨3, _⟩ => ⟨S8192x64, .f32⟩
  | .hbm, ⟨4, _⟩ => ⟨S_, .f32⟩
  | .hbm, ⟨5, _⟩ => ⟨S_, .f32⟩
  | .hbm, ⟨6, _⟩ => ⟨S8192x64, .f32⟩
  | .hbm, ⟨7, _⟩ => ⟨S8192x64, .i1⟩
  | .hbm, ⟨8, _⟩ => ⟨S_, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S_, .f32⟩
  | .hbm, ⟨15, _⟩ => ⟨S8192x64, .f32⟩
  | .hbm, ⟨16, _⟩ => ⟨S8192x64, .i1⟩
  | .hbm, ⟨17, _⟩ => ⟨S_, .f32⟩
  | .hbm, ⟨18, _⟩ => ⟨S8192x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x64, .f32⟩
  | .hbm, ⟨26, _⟩ => ⟨S_, .f32⟩
  | .hbm, ⟨27, _⟩ => ⟨S8192, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S64x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_call1_cst : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_cst_7 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  dot_S8192x256_S256x64_S8192x64_1_0_0_1_n_n_wf : DotDims.WF S8192x256 S256x64 S8192x64 [1] [0] [0] [1] [] []
  dot_S8192x64_S64x8192_S8192x8192_1_0_0_1_n_n_wf : DotDims.WF S8192x64 S64x8192 S8192x8192 [1] [0] [0] [1] [] []

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KernelRun.lean ====
/-
  The idealized kernel program's run with its RESULT named: the three pallas_calls in sequence leave, in the result
  array, whatever the third pipeline's write-backs fold to (the buffer contents after the last region, read at the
  result's buffer), and the argument arrays as launched.
-/
import proofs.«143951_j3908420239434_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents
    the last region's boundary gives its buffer, and the three argument arrays end as launched. -/
theorem run_values : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.RunValue

end
-- ==== Proof.Spec.lean ====
/-
  The mathematics both programs compute, stated once over the extended reals and over literal shapes.

  From two point clouds x1, x2 : [8192, 256] and one weight matrix w : [256, 64]:
    feat x w (r, h)  = leaky (∑ k < 256, x (r, k) · w (k, h))          (a linear map followed by a leaky rectifier),
    dist f1 f2 (r, c) = gate (‖f1 r‖² + ‖f2 c‖² − 2 · ⟨f1 r, f2 c⟩)      (the expanded squared distance of two feature rows),
  where gate q = logistic (0 − sqrt (max q 0 + ε)).  The result is dist (feat x1 w) (feat x2 w) : [8192, 8192].
  The four float literals (0, the slope 0.2, 2 and ε) are kept as the binary words both programs print; no law used
  below needs their values except that the zero word is 0 and the one word is 1.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.PairDist

abbrev SX : Shape := ⟨2, ![8192, 256]⟩
abbrev SW : Shape := ⟨2, ![256, 64]⟩
abbrev SF : Shape := ⟨2, ![8192, 64]⟩
abbrev SO : Shape := ⟨2, ![8192, 8192]⟩

/-- The four literal words, read as extended reals. -/
abbrev zeroW : EReal := Ideal.ofBits .f32 0x00000000#32
abbrev slopeW : EReal := Ideal.ofBits .f32 0x3E4CCCCD#32
abbrev twoW : EReal := Ideal.ofBits .f32 0x40000000#32
abbrev epsW : EReal := Ideal.ofBits .f32 0x2B8CBCCC#32

/-- The leaky rectifier: the value itself where it is positive, the slope times it elsewhere. -/
def leaky (a : EReal) : EReal := Scalar.select (Ideal.cmp .ogt a zeroW) a (slopeW * a)

/-- One feature: row r of x against column h of w, rectified. -/
def featAt (x : SX.Idx → EReal) (w : SW.Idx → EReal) (r : Fin 8192) (h : Fin 64) : EReal :=
  leaky (∑ k : Fin 256, x (ix2 r k) * w (ix2 k h))

/-- The feature array of a point cloud. -/
def feat (x : SX.Idx → EReal) (w : SW.Idx → EReal) : SF.Idx → EReal := fun i => featAt x w (i 0) (i 1)

/-- The squared norm of feature row r. -/
def sqn (f : SF.Idx → EReal) (r : Fin 8192) : EReal := ∑ k : Fin 64, f (ix2 r k) * f (ix2 r k)

/-- The inner product of row r of f1 with row c of f2. -/
def cross (f1 f2 : SF.Idx → EReal) (r c : Fin 8192) : EReal := ∑ k : Fin 64, f1 (ix2 r k) * f2 (ix2 c k)

/-- From an expanded squared distance to the output: clamp at zero, add ε, take the root, negate, squash. -/
def gate (q : EReal) : EReal := Ideal.logistic (zeroW - Ideal.sqrt (max q zeroW + epsW))

/-- One output entry. -/
def distAt (f1 f2 : SF.Idx → EReal) (r c : Fin 8192) : EReal :=
  gate (sqn f1 r + sqn f2 c - twoW * cross f1 f2 r c)

/-- The pairwise array of two feature arrays. -/
def dist (f1 f2 : SF.Idx → EReal) : SO.Idx → EReal := fun i => distAt f1 f2 (i 0) (i 1)

/-- The whole computation. -/
def whole (x1 x2 : SX.Idx → EReal) (w : SW.Idx → EReal) : SO.Idx → EReal := dist (feat x1 w) (feat x2 w)

end Cert.PairDist

end
-- ==== Proof.ProjValue0.lean ====
/-
  What projection pipeline 0 leaves in its output array, at the extended reals: each 1024-row block of the
  point cloud is multiplied with the whole weight matrix and rectified, block t of the output being rows
  [1024·t, 1024·t + 1024) of the feature array; the eight blocks tile the [8192, 64] array, so the array ends
  holding feat x w of the arrays the region found.
-/
import proofs.«143951_j3908420239434_2_alg».proof.Proof.Gen.KernelIdeal.Frame
import proofs.«143951_j3908420239434_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.ProjValue0

open Cert.KernelIdeal Cert.KernelIdeal.Gen

theorem hz : (![0, 0] : Fin 2 → Nat) = fun _ => 0 := funext fun a => by fin_cases a <;> rfl

/-! ## The block product at an index -/

theorem lhs_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide),
    dif_pos (show (0 : Fin S1024x256.rank) ∈ dot_S1024x256_S256x64_S1024x64_1_0_0_1_n_n.lhsNonContracting by decide)]
  rfl
theorem lhs_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem rhs_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem rhs_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide),
    dif_pos (show (1 : Fin S256x64.rank) ∈ dot_S1024x256_S256x64_S1024x64_1_0_0_1_n_n.rhsNonContracting by decide)]
  rfl

/-- A block of rows times the weights, into a zero accumulator, at (p, h): the sum over the 256 shared
    coordinates of row p's entries times column h's. -/
theorem mm_apply (a : FVec Ideal S1024x256 .bf16) (b : FVec Ideal S256x64 .bf16) (p : Fin 1024) (h : Fin 64) :
    matmul dot_S1024x256_S256x64_S1024x64_1_0_0_1_n_n none a b (constant S1024x64 .f32 0x00000000#32) (ix2 p h)
      = ∑ k : Fin 256, a (ix2 p k) * b (ix2 k h) := by
  simp only [matmul]
  rw [Ideal.matmul_constant_zero_apply,
    ← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 p h)
      ((contrEquiv1 dot_S1024x256_S256x64_S1024x64_1_0_0_1_n_n 256 rfl rfl).symm k) = ix2 p k :=
    funext fun a => Fin.ext (by
      match a with
      | ⟨0, _⟩ => exact lhs_0 _ _
      | ⟨1, _⟩ => exact (lhs_1 _ _).trans hk)
  have er : dot_S1024x256_S256x64_S1024x64_1_0_0_1_n_n.rhsIdx (ix2 p h)
      ((contrEquiv1 dot_S1024x256_S256x64_S1024x64_1_0_0_1_n_n 256 rfl rfl).symm k) = ix2 k h :=
    funext fun a => Fin.ext (by
      match a with
      | ⟨0, _⟩ => exact (rhs_0 _ _).trans hk
      | ⟨1, _⟩ => exact rhs_1 _ _)
  rw [el, er]

/-- The body's arithmetic at (p, h): the block product there, rectified (rounding an operand to bf16 is the
    identity on the extended reals). -/
theorem pay_apply (x0 : Vec Ideal S1024x256 .f32) (x1 : Vec Ideal S256x64 .f32) (p : Fin 1024) (h : Fin 64) :
    k0_pay1 x0 x1 (ix2 p h) = Cert.PairDist.leaky (∑ k : Fin 256, x0 (ix2 p k) * x1 (ix2 k h)) := by
  have hm := mm_apply (truncf .bf16 x0 bitsLt_bf16_f32) (truncf .bf16 x1 bitsLt_bf16_f32) p h
  show Cert.PairDist.leaky (matmul (F := Ideal) dot_S1024x256_S256x64_S1024x64_1_0_0_1_n_n none (truncf .bf16 x0 bitsLt_bf16_f32)
    (truncf .bf16 x1 bitsLt_bf16_f32) (constant S1024x64 .f32 0x00000000#32) (ix2 p h)) = _
  rw [hm]
  rfl

/-- The same against a feature array: if row (j 0) of the first block is row (i 0) of X and the second block is W
    (column for column), the body's value at j is feat X W at i. -/
theorem pay_feat (x0 : Vec Ideal S1024x256 .f32) (x1 : Vec Ideal S256x64 .f32)
    (X : Cert.PairDist.SX.Idx → EReal) (W : Cert.PairDist.SW.Idx → EReal) (j : S1024x64.Idx) (i : S8192x64.Idx)
    (h0 : ∀ k : Fin 256, x0 (ix2 (j 0) k) = X (ix2 (i 0) k))
    (h1 : ∀ k : Fin 256, x1 (ix2 k (j 1)) = W (ix2 k (i 1))) :
    k0_pay1 x0 x1 j = Cert.PairDist.feat X W i := by
  obtain ⟨p, h, rfl⟩ : ∃ (p : Fin 1024) (h : Fin 64), j = ix2 p h := ⟨j 0, j 1, eq_ix2 j⟩
  refine (pay_apply x0 x1 p h).trans ?_
  unfold Cert.PairDist.feat Cert.PairDist.featAt
  refine congrArg Cert.PairDist.leaky (Finset.sum_congr rfl fun k _ => ?_)
  rw [← h0 k, ← h1 k]

/-! ## The windows' blocks as rows of their arrays -/

/-- The printed index maps over the grid: the row block moves with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Window 0's block at point t is rows 1024·t … of the point cloud. -/
theorem blk_x (c : Dev nD) (t : Fin cfg0.N) (x : S1024x256.Idx) (k : S8192x256.Idx)
    (hk0 : (k 0).val = t.val * 1024 + (x 0).val) (hk1 : (k 1).val = (x 1).val) :
    (iblk0 V c 0 t : Vec Ideal S1024x256 .f32) x = (V c main_arg0 : S8192x256.Idx → Elt Ideal .f32) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 1024 + 1 * (x 0).val = (k 0).val; rw [e0, hk0]; omega
  | ⟨1, _⟩ => show win0_0.index t 1 * 256 + 1 * (x 1).val = (k 1).val; rw [e1, hk1]; omega

/-- Window 1's block at every point is the whole weight matrix. -/
theorem blk_w (c : Dev nD) (t : Fin cfg0.N) (x : S256x64.Idx) :
    (iblk0 V c 1 t : Vec Ideal S256x64 .f32) x = (V c main_arg2 : S256x64.Idx → Elt Ideal .f32) x := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t 0 * 256 + 1 * (x 0).val = (x 0).val; rw [e2]; omega
  | ⟨1, _⟩ => show win0_1.index t 1 * 64 + 1 * (x 1).val = (x 1).val; rw [e3]; omega

/-! ## From blocks to the array -/

/-- What point t writes back is block t of the feature array of the arrays the region found. -/
theorem flushed_eq (c : Dev nD) (t : Fin cfg0.N) :
    (dat0 V c).flushed 2 t
      = ((cfg0.win 2).blk t).view.read (Elt Ideal) (Cert.PairDist.feat (V c main_arg0) (V c main_arg2)) := by
  show (cfg0.win 2).cut (grid0.coords t) ((dat0 V c).after 2 t) = _
  rw [after0_2]
  unfold out0_2
  rw [View.canon_unit_zero hz]
  simp only [View.ld_unit_zero (S := S1024x256) hz, View.ld_unit_zero (S := S256x64) hz]
  obtain ⟨-, -, -, -, e4, e5⟩ := idx_facts t
  funext j
  show k0_pay1 (iblk0 V c 0 t) (iblk0 V c 1 t) j
    = Cert.PairDist.feat (V c main_arg0) (V c main_arg2) (((cfg0.win 2).blk t).view.emb j)
  refine pay_feat (iblk0 V c 0 t) (iblk0 V c 1 t) (V c main_arg0) (V c main_arg2) j
    (((cfg0.win 2).blk t).view.emb j) (fun k => ?_) (fun k => ?_)
  · refine blk_x V c t _ _ ?_ rfl
    show win0_2.index t 0 * 1024 + 1 * (j 0).val = t.val * 1024 + (j 0).val
    rw [e4]; omega
  · refine (blk_w V c t _).trans (congrArg (V c main_arg2) (funext fun a => Fin.ext ?_))
    match a with
    | ⟨0, _⟩ => rfl
    | ⟨1, _⟩ => show (j 1).val = win0_2.index t 1 * 64 + 1 * (j 1).val; rw [e5]; omega

/-- An index of the feature array is in point t's block iff each coordinate is in the block's range. -/
theorem mem_blk (t : Fin cfg0.N) (i : S8192x64.Idx) :
    i ∈ ((cfg0.win 2).blk t).view.set ↔ ∀ a : Fin 2, win0_2.index t a * S1024x64.size a ≤ (i a).val
      ∧ (i a).val < win0_2.index t a * S1024x64.size a + S1024x64.size a := by
  show i ∈ ((View.whole main_v0).slice (win0_2.rect t)).set ↔ _
  rw [View.set_slice_whole, Rect.mem_set_unit]
  exact Iff.rfl

/-- Row r of the feature array lies in the block of point r / 1024. -/
theorem cover (i : S8192x64.Idx) :
    ∃ t : Fin cfg0.N, (cfg0.win 2).flush t = true ∧ i ∈ ((cfg0.win 2).blk t).view.set := by
  have hi0 : (i 0).val < 8192 := (i 0).isLt
  have hi1 : (i 1).val < 64 := (i 1).isLt
  have hN : cfg0.N = 8 := N_0
  refine ⟨⟨(i 0).val / 1024, by rw [hN]; omega⟩, flush0_2 _, ?_⟩
  obtain ⟨-, -, -, -, e4, e5⟩ := idx_facts ⟨(i 0).val / 1024, by rw [hN]; omega⟩
  rw [mem_blk]
  intro a
  match a with
  | ⟨0, _⟩ =>
    show win0_2.index _ 0 * 1024 ≤ (i 0).val ∧ (i 0).val < win0_2.index _ 0 * 1024 + 1024
    rw [e4]; show (i 0).val / 1024 * 1024 ≤ (i 0).val ∧ (i 0).val < (i 0).val / 1024 * 1024 + 1024; omega
  | ⟨1, _⟩ =>
    show win0_2.index _ 1 * 64 ≤ (i 1).val ∧ (i 1).val < win0_2.index _ 1 * 64 + 64
    rw [e5]; omega

/-- The output array after the pipeline: the feature array of the point cloud and the weights as the region found
    them. -/
theorem final (c : Dev nD) :
    (dat0 V c).arrAt 2 cfg0.N = Cert.PairDist.feat (V c main_arg0) (V c main_arg2) :=
  (dat0 V c).arrAt_eq_of_cover 2 _ (fun t _ => flushed_eq V c t) cover

end Cert.KernelIdeal.ProjValue0

end
-- ==== Proof.ProjValue1.lean ====
/-
  What projection pipeline 1 leaves in its output array, at the extended reals: each 1024-row block of the
  point cloud is multiplied with the whole weight matrix and rectified, block t of the output being rows
  [1024·t, 1024·t + 1024) of the feature array; the eight blocks tile the [8192, 64] array, so the array ends
  holding feat x w of the arrays the region found.
-/
import proofs.«143951_j3908420239434_2_alg».proof.Proof.Gen.KernelIdeal.Frame
import proofs.«143951_j3908420239434_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.ProjValue1

open Cert.KernelIdeal Cert.KernelIdeal.Gen

theorem hz : (![0, 0] : Fin 2 → Nat) = fun _ => 0 := funext fun a => by fin_cases a <;> rfl

/-! ## The block product at an index -/

theorem lhs_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide),
    dif_pos (show (0 : Fin S1024x256.rank) ∈ dot_S1024x256_S256x64_S1024x64_1_0_0_1_n_n.lhsNonContracting by decide)]
  rfl
theorem lhs_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem rhs_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem rhs_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide),
    dif_pos (show (1 : Fin S256x64.rank) ∈ dot_S1024x256_S256x64_S1024x64_1_0_0_1_n_n.rhsNonContracting by decide)]
  rfl

/-- A block of rows times the weights, into a zero accumulator, at (p, h): the sum over the 256 shared
    coordinates of row p's entries times column h's. -/
theorem mm_apply (a : FVec Ideal S1024x256 .bf16) (b : FVec Ideal S256x64 .bf16) (p : Fin 1024) (h : Fin 64) :
    matmul dot_S1024x256_S256x64_S1024x64_1_0_0_1_n_n none a b (constant S1024x64 .f32 0x00000000#32) (ix2 p h)
      = ∑ k : Fin 256, a (ix2 p k) * b (ix2 k h) := by
  simp only [matmul]
  rw [Ideal.matmul_constant_zero_apply,
    ← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 p h)
      ((contrEquiv1 dot_S1024x256_S256x64_S1024x64_1_0_0_1_n_n 256 rfl rfl).symm k) = ix2 p k :=
    funext fun a => Fin.ext (by
      match a with
      | ⟨0, _⟩ => exact lhs_0 _ _
      | ⟨1, _⟩ => exact (lhs_1 _ _).trans hk)
  have er : dot_S1024x256_S256x64_S1024x64_1_0_0_1_n_n.rhsIdx (ix2 p h)
      ((contrEquiv1 dot_S1024x256_S256x64_S1024x64_1_0_0_1_n_n 256 rfl rfl).symm k) = ix2 k h :=
    funext fun a => Fin.ext (by
      match a with
      | ⟨0, _⟩ => exact (rhs_0 _ _).trans hk
      | ⟨1, _⟩ => exact rhs_1 _ _)
  rw [el, er]

/-- The body's arithmetic at (p, h): the block product there, rectified (rounding an operand to bf16 is the
    identity on the extended reals). -/
theorem pay_apply (x0 : Vec Ideal S1024x256 .f32) (x1 : Vec Ideal S256x64 .f32) (p : Fin 1024) (h : Fin 64) :
    k1_pay1 x0 x1 (ix2 p h) = Cert.PairDist.leaky (∑ k : Fin 256, x0 (ix2 p k) * x1 (ix2 k h)) := by
  have hm := mm_apply (truncf .bf16 x0 bitsLt_bf16_f32) (truncf .bf16 x1 bitsLt_bf16_f32) p h
  show Cert.PairDist.leaky (matmul (F := Ideal) dot_S1024x256_S256x64_S1024x64_1_0_0_1_n_n none (truncf .bf16 x0 bitsLt_bf16_f32)
    (truncf .bf16 x1 bitsLt_bf16_f32) (constant S1024x64 .f32 0x00000000#32) (ix2 p h)) = _
  rw [hm]
  rfl

/-- The same against a feature array: if row (j 0) of the first block is row (i 0) of X and the second block is W
    (column for column), the body's value at j is feat X W at i. -/
theorem pay_feat (x0 : Vec Ideal S1024x256 .f32) (x1 : Vec Ideal S256x64 .f32)
    (X : Cert.PairDist.SX.Idx → EReal) (W : Cert.PairDist.SW.Idx → EReal) (j : S1024x64.Idx) (i : S8192x64.Idx)
    (h0 : ∀ k : Fin 256, x0 (ix2 (j 0) k) = X (ix2 (i 0) k))
    (h1 : ∀ k : Fin 256, x1 (ix2 k (j 1)) = W (ix2 k (i 1))) :
    k1_pay1 x0 x1 j = Cert.PairDist.feat X W i := by
  obtain ⟨p, h, rfl⟩ : ∃ (p : Fin 1024) (h : Fin 64), j = ix2 p h := ⟨j 0, j 1, eq_ix2 j⟩
  refine (pay_apply x0 x1 p h).trans ?_
  unfold Cert.PairDist.feat Cert.PairDist.featAt
  refine congrArg Cert.PairDist.leaky (Finset.sum_congr rfl fun k _ => ?_)
  rw [← h0 k, ← h1 k]

/-! ## The windows' blocks as rows of their arrays -/

/-- The printed index maps over the grid: the row block moves with the point, the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Window 0's block at point t is rows 1024·t … of the point cloud. -/
theorem blk_x (c : Dev nD) (t : Fin cfg1.N) (x : S1024x256.Idx) (k : S8192x256.Idx)
    (hk0 : (k 0).val = t.val * 1024 + (x 0).val) (hk1 : (k 1).val = (x 1).val) :
    (iblk1 V c 0 t : Vec Ideal S1024x256 .f32) x = (V c main_arg1 : S8192x256.Idx → Elt Ideal .f32) k := by
  obtain ⟨e0, e1, -⟩ := idx_facts t
  unfold iblk1
  rw [View.read_apply]
  show V c main_arg1 _ = V c main_arg1 _
  congr 1
  funext a
  apply Fin.ext
  match a with
  | ⟨0, _⟩ => show win1_0.index t 0 * 1024 + 1 * (x 0).val = (k 0).val; rw [e0, hk0]; omega
  | ⟨1, _⟩ => show win1_0.index t 1 * 256 + 1 * (x 1).val = (k 1).val; rw [e1, hk1]; omega

/-- Window 1's block at every point is the whole weight matrix. -/
theorem blk_w (c : Dev nD) (t : Fin cfg1.N) (x : S256x64.Idx) :
    (iblk1 V c 1 t : Vec Ideal S256x64 .f32) x = (V c main_arg2 : S256x64.Idx → Elt Ideal .f32) x := by
  obtain ⟨-, -, e2, e3, -⟩ := idx_facts t
  unfold iblk1
  rw [View.read_apply]
  show V c main_arg2 _ = V c main_arg2 _
  congr 1
  funext a
  apply Fin.ext
  match a with
  | ⟨0, _⟩ => show win1_1.index t 0 * 256 + 1 * (x 0).val = (x 0).val; rw [e2]; omega
  | ⟨1, _⟩ => show win1_1.index t 1 * 64 + 1 * (x 1).val = (x 1).val; rw [e3]; omega

/-! ## From blocks to the array -/

/-- What point t writes back is block t of the feature array of the arrays the region found. -/
theorem flushed_eq (c : Dev nD) (t : Fin cfg1.N) :
    (dat1 V c).flushed 2 t
      = ((cfg1.win 2).blk t).view.read (Elt Ideal) (Cert.PairDist.feat (V c main_arg1) (V c main_arg2)) := by
  show (cfg1.win 2).cut (grid1.coords t) ((dat1 V c).after 2 t) = _
  rw [after1_2]
  unfold out1_2
  rw [View.canon_unit_zero hz]
  simp only [View.ld_unit_zero (S := S1024x256) hz, View.ld_unit_zero (S := S256x64) hz]
  obtain ⟨-, -, -, -, e4, e5⟩ := idx_facts t
  funext j
  show k1_pay1 (iblk1 V c 0 t) (iblk1 V c 1 t) j
    = Cert.PairDist.feat (V c main_arg1) (V c main_arg2) (((cfg1.win 2).blk t).view.emb j)
  refine pay_feat (iblk1 V c 0 t) (iblk1 V c 1 t) (V c main_arg1) (V c main_arg2) j
    (((cfg1.win 2).blk t).view.emb j) (fun k => ?_) (fun k => ?_)
  · refine blk_x V c t _ _ ?_ rfl
    show win1_2.index t 0 * 1024 + 1 * (j 0).val = t.val * 1024 + (j 0).val
    rw [e4]; omega
  · refine (blk_w V c t _).trans (congrArg (V c main_arg2) (funext fun a => Fin.ext ?_))
    match a with
    | ⟨0, _⟩ => rfl
    | ⟨1, _⟩ => show (j 1).val = win1_2.index t 1 * 64 + 1 * (j 1).val; rw [e5]; omega

/-- An index of the feature array is in point t's block iff each coordinate is in the block's range. -/
theorem mem_blk (t : Fin cfg1.N) (i : S8192x64.Idx) :
    i ∈ ((cfg1.win 2).blk t).view.set ↔ ∀ a : Fin 2, win1_2.index t a * S1024x64.size a ≤ (i a).val
      ∧ (i a).val < win1_2.index t a * S1024x64.size a + S1024x64.size a := by
  show i ∈ ((View.whole main_v1).slice (win1_2.rect t)).set ↔ _
  rw [View.set_slice_whole, Rect.mem_set_unit]
  exact Iff.rfl

/-- Row r of the feature array lies in the block of point r / 1024. -/
theorem cover (i : S8192x64.Idx) :
    ∃ t : Fin cfg1.N, (cfg1.win 2).flush t = true ∧ i ∈ ((cfg1.win 2).blk t).view.set := by
  have hi0 : (i 0).val < 8192 := (i 0).isLt
  have hi1 : (i 1).val < 64 := (i 1).isLt
  have hN : cfg1.N = 8 := N_1
  refine ⟨⟨(i 0).val / 1024, by rw [hN]; omega⟩, flush1_2 _, ?_⟩
  obtain ⟨-, -, -, -, e4, e5⟩ := idx_facts ⟨(i 0).val / 1024, by rw [hN]; omega⟩
  rw [mem_blk]
  intro a
  match a with
  | ⟨0, _⟩ =>
    show win1_2.index _ 0 * 1024 ≤ (i 0).val ∧ (i 0).val < win1_2.index _ 0 * 1024 + 1024
    rw [e4]; show (i 0).val / 1024 * 1024 ≤ (i 0).val ∧ (i 0).val < (i 0).val / 1024 * 1024 + 1024; omega
  | ⟨1, _⟩ =>
    show win1_2.index _ 1 * 64 ≤ (i 1).val ∧ (i 1).val < win1_2.index _ 1 * 64 + 64
    rw [e5]; omega

/-- The output array after the pipeline: the feature array of the point cloud and the weights as the region found
    them. -/
theorem final (c : Dev nD) :
    (dat1 V c).arrAt 2 cfg1.N = Cert.PairDist.feat (V c main_arg1) (V c main_arg2) :=
  (dat1 V c).arrAt_eq_of_cover 2 _ (fun t _ => flushed_eq V c t) cover

end Cert.KernelIdeal.ProjValue1

end
-- ==== Proof.DistPayload.lean ====
/-
  The pairwise-distance kernel's body, read at one index of its output block.

  From two loaded blocks x0 : [1024, 64] and x1 : [2048, 64] the body computes, at (p, q),
    gate (‖x0 p‖² + ‖x1 q‖² − 2 · ⟨x0 p, x1 q⟩),
  where the first squared norm is a lane sum kept as a column [1024, 1] and broadcast along the row, the second is
  the product of a row of ones with the squared block (so a sum over the 64 lanes of 1 · x1 (q, k)²), broadcast
  down the column, and the inner product is the second matrix product. At the ideal values every format change is
  the identity and every sum is exact, so the three pieces are plain finite sums over the 64 lanes.
-/
import proofs.«143951_j3908420239434_2_alg».proof.Proof.Gen.KernelIdeal.Skeleton
import proofs.«143951_j3908420239434_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.KernelIdeal.DistPayload

open Cert.KernelIdeal Cert.KernelIdeal.Gen Idealize.ShloMosaic Idealize.ShloMosaic.TcCoe Idealize.SL.Sem Idealize.ShloMosaic.ValueIdx

/-! ## The layout operations of a kept column -/

/-- A vector [a] cast to a column [a, 1] reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane sum -/

/-- The sum over the 64 lanes of a [1024, 64] block, read at row p. -/
theorem laneSum_apply (src : FVec Ideal S1024x64 .f32) (h : S1024x64.Reduces [1] S1024) (hφ : FKind.Formats .f32)
    (hacc : (0x00000000#32 : BitVec 32) = 0x00000000#32) (p : Fin 1024) :
    multiReduction .add [1] S1024 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-! ## The two matrix products -/

/-- The left index of the [1024, 64] × [2048, 64] product at output (p, q) and lane k is (p, k). -/
theorem cross_lhs (p : Fin 1024) (q : Fin 2048) (k : Fin 64) :
    dot_S1024x64_S2048x64_S1024x2048_1_1_0_0_n_n.lhsIdx (ix2 p q)
      ((contrEquiv1 dot_S1024x64_S2048x64_S1024x2048_1_1_0_0_n_n 64 rfl rfl).symm k) = ix2 p k := by
  have hk := contrEquiv1_symm_val dot_S1024x64_S2048x64_S1024x2048_1_1_0_0_n_n 64 rfl rfl k
  funext a
  apply Fin.ext
  match a with
  | ⟨0, _⟩ =>
    show (dot_S1024x64_S2048x64_S1024x2048_1_1_0_0_n_n.lhsIdx (ix2 p q) _ (0 : Fin 2)).val = p.val
    unfold DotDims.lhsIdx
    rw [dif_neg (show ¬(0 : Fin S1024x64.rank) ∈ dot_S1024x64_S2048x64_S1024x2048_1_1_0_0_n_n.lhsBatch by decide),
      dif_pos (show (0 : Fin S1024x64.rank) ∈ dot_S1024x64_S2048x64_S1024x2048_1_1_0_0_n_n.lhsNonContracting by decide)]
    rfl
  | ⟨1, _⟩ =>
    exact (dot_S1024x64_S2048x64_S1024x2048_1_1_0_0_n_n.lhsIdx_val_of_single rfl (ix2 p q) _).trans hk

/-- Its right index is (q, k). -/
theorem cross_rhs (p : Fin 1024) (q : Fin 2048) (k : Fin 64) :
    dot_S1024x64_S2048x64_S1024x2048_1_1_0_0_n_n.rhsIdx (ix2 p q)
      ((contrEquiv1 dot_S1024x64_S2048x64_S1024x2048_1_1_0_0_n_n 64 rfl rfl).symm k) = ix2 q k := by
  have hk := contrEquiv1_symm_val dot_S1024x64_S2048x64_S1024x2048_1_1_0_0_n_n 64 rfl rfl k
  funext a
  apply Fin.ext
  match a with
  | ⟨0, _⟩ =>
    show (dot_S1024x64_S2048x64_S1024x2048_1_1_0_0_n_n.rhsIdx (ix2 p q) _ (0 : Fin 2)).val = q.val
    unfold DotDims.rhsIdx
    rw [dif_neg (show ¬(0 : Fin S2048x64.rank) ∈ dot_S1024x64_S2048x64_S1024x2048_1_1_0_0_n_n.rhsBatch by decide),
      dif_pos (show (0 : Fin S2048x64.rank) ∈ dot_S1024x64_S2048x64_S1024x2048_1_1_0_0_n_n.rhsNonContracting by decide)]
    rfl
  | ⟨1, _⟩ =>
    exact (dot_S1024x64_S2048x64_S1024x2048_1_1_0_0_n_n.rhsIdx_val_of_single rfl (ix2 p q) _).trans hk

/-- The product of a [1024, 64] block with the transpose of a [2048, 64] block into the zero splat, at (p, q):
    the inner product of row p with row q. -/
theorem cross_apply {φ₁ φ₂ : FTy} (a : FVec Ideal S1024x64 φ₁) (b : FVec Ideal S2048x64 φ₂) (p : Fin 1024) (q : Fin 2048) :
    matmul dot_S1024x64_S2048x64_S1024x2048_1_1_0_0_n_n none a b (constant S1024x2048 .f32 0x00000000#32) (ix2 p q)
      = ∑ k : Fin 64, a (ix2 p k) * b (ix2 q k) := by
  simp only [matmul]
  rw [Ideal.matmul_constant_zero_apply,
    ← Equiv.sum_comp (contrEquiv1 dot_S1024x64_S2048x64_S1024x2048_1_1_0_0_n_n 64 rfl rfl).symm]
  refine Finset.sum_congr rfl fun k _ => ?_
  rw [cross_lhs, cross_rhs]

/-- The left index of the [1, 64] × [2048, 64] product at output (u, q) and lane k is (u, k). -/
theorem ones_lhs (u : Fin 1) (q : Fin 2048) (k : Fin 64) :
    dot_S1x64_S2048x64_S1x2048_1_1_0_0_n_n.lhsIdx (ix2 u q)
      ((contrEquiv1 dot_S1x64_S2048x64_S1x2048_1_1_0_0_n_n 64 rfl rfl).symm k) = ix2 u k := by
  have hk := contrEquiv1_symm_val dot_S1x64_S2048x64_S1x2048_1_1_0_0_n_n 64 rfl rfl k
  funext a
  apply Fin.ext
  match a with
  | ⟨0, _⟩ =>
    show (dot_S1x64_S2048x64_S1x2048_1_1_0_0_n_n.lhsIdx (ix2 u q) _ (0 : Fin 2)).val = u.val
    unfold DotDims.lhsIdx
    rw [dif_neg (show ¬(0 : Fin S1x64.rank) ∈ dot_S1x64_S2048x64_S1x2048_1_1_0_0_n_n.lhsBatch by decide),
      dif_pos (show (0 : Fin S1x64.rank) ∈ dot_S1x64_S2048x64_S1x2048_1_1_0_0_n_n.lhsNonContracting by decide)]
    rfl
  | ⟨1, _⟩ =>
    exact (dot_S1x64_S2048x64_S1x2048_1_1_0_0_n_n.lhsIdx_val_of_single rfl (ix2 u q) _).trans hk

/-- Its right index is (q, k). -/
theorem ones_rhs (u : Fin 1) (q : Fin 2048) (k : Fin 64) :
    dot_S1x64_S2048x64_S1x2048_1_1_0_0_n_n.rhsIdx (ix2 u q)
      ((contrEquiv1 dot_S1x64_S2048x64_S1x2048_1_1_0_0_n_n 64 rfl rfl).symm k) = ix2 q k := by
  have hk := contrEquiv1_symm_val dot_S1x64_S2048x64_S1x2048_1_1_0_0_n_n 64 rfl rfl k
  funext a
  apply Fin.ext
  match a with
  | ⟨0, _⟩ =>
    show (dot_S1x64_S2048x64_S1x2048_1_1_0_0_n_n.rhsIdx (ix2 u q) _ (0 : Fin 2)).val = q.val
    unfold DotDims.rhsIdx
    rw [dif_neg (show ¬(0 : Fin S2048x64.rank) ∈ dot_S1x64_S2048x64_S1x2048_1_1_0_0_n_n.rhsBatch by decide),
      dif_pos (show (0 : Fin S2048x64.rank) ∈ dot_S1x64_S2048x64_S1x2048_1_1_0_0_n_n.rhsNonContracting by decide)]
    rfl
  | ⟨1, _⟩ =>
    exact (dot_S1x64_S2048x64_S1x2048_1_1_0_0_n_n.rhsIdx_val_of_single rfl (ix2 u q) _).trans hk

/-- A row of ones times the transpose of a [2048, 64] block into the zero splat, at (u, q): the sum of row q over
    its 64 lanes (the word 0x3F80 is one, and one times a value is the value). -/
theorem onesRow_apply {φ₂ : FTy} (b : FVec Ideal S2048x64 φ₂) (u : Fin 1) (q : Fin 2048) :
    matmul dot_S1x64_S2048x64_S1x2048_1_1_0_0_n_n none
        (broadcast S1x64 (Scalar.ofBits (F := Ideal) .bf16 0x3F80#16)) b (constant S1x2048 .f32 0x00000000#32) (ix2 u q)
      = ∑ k : Fin 64, b (ix2 q k) := by
  simp only [matmul]
  rw [Ideal.matmul_constant_zero_apply,
    ← Equiv.sum_comp (contrEquiv1 dot_S1x64_S2048x64_S1x2048_1_1_0_0_n_n 64 rfl rfl).symm]
  refine Finset.sum_congr rfl fun k _ => ?_
  rw [ones_lhs, ones_rhs]
  show Ideal.ofBits .bf16 0x3F80#16 * b (ix2 q k) = b (ix2 q k)
  rw [Ideal.ofBits_one_bf16, one_mul]

/-! ## The payload at an index -/

/-- The body's stored value at (p, q) of its block: the gate of the expanded squared distance of row p of the first
    loaded block and row q of the second. -/
theorem pay_apply (x0 : Vec Ideal S1024x64 .f32) (x1 : Vec Ideal S2048x64 .f32) (p : Fin 1024) (q : Fin 2048) :
    Gen.k2_pay1 (F := Ideal) x0 x1 (ix2 p q)
      = Cert.PairDist.gate ((∑ k : Fin 64, x0 (ix2 p k) * x0 (ix2 p k)) + (∑ k : Fin 64, x1 (ix2 q k) * x1 (ix2 q k))
          - Cert.PairDist.twoW * ∑ k : Fin 64, x0 (ix2 p k) * x1 (ix2 q k)) := by
  unfold Gen.k2_pay1
  show Cert.PairDist.gate (_ + _ - Cert.PairDist.twoW * _) = _
  refine congrArg Cert.PairDist.gate (congr (congrArg _ (congr (congrArg _ ?_) ?_)) (congrArg _ ?_))
  · refine (broadcastTo_a1_ab_apply _ _ p q).trans ((shapeCast_a_a1_apply _ _ p 0).trans ((laneSum_apply _ _ _ _ p).trans ?_))
    rw [shapeCast_self]
    rfl
  · refine (broadcastTo_1b_ab_apply _ _ p q).trans ((onesRow_apply _ 0 q).trans ?_)
    rw [shapeCast_self]
    rfl
  · refine (cross_apply _ _ p q).trans ?_
    rw [shapeCast_self, shapeCast_self]
    rfl

/-- When row p of the first block is row r of a feature array f1 and row q of the second is row c of a feature
    array f2, the stored value is the pairwise entry (r, c) of the two arrays. -/
theorem pay_eq_distAt (x0 : Vec Ideal S1024x64 .f32) (x1 : Vec Ideal S2048x64 .f32)
    (f1 f2 : Cert.PairDist.SF.Idx → EReal) (p : Fin 1024) (q : Fin 2048) (r c : Fin 8192)
    (h0 : ∀ k : Fin 64, x0 (ix2 p k) = f1 (ix2 r k)) (h1 : ∀ k : Fin 64, x1 (ix2 q k) = f2 (ix2 c k)) :
    Gen.k2_pay1 (F := Ideal) x0 x1 (ix2 p q) = Cert.PairDist.distAt f1 f2 r c := by
  rw [pay_apply]
  unfold Cert.PairDist.distAt Cert.PairDist.sqn Cert.PairDist.cross
  simp only [h0, h1]

end Cert.KernelIdeal.DistPayload

end
-- ==== Proof.DistBlocks.lean ====
/-
  What the pairwise pipeline leaves in its output array, at the extended reals: at grid point t = 4·a + b the body
  reads rows [1024·a, +1024) of the first feature array and rows [2048·b, +2048) of the second and writes the
  1024 × 2048 tile at (1024·a, 2048·b); its value at (p, q) depends on row p of the first block and row q of the
  second only, so the tile is the restriction of dist f1 f2, and the 32 tiles cover the [8192, 8192] array.
-/
import proofs.«143951_j3908420239434_2_alg».proof.Proof.Gen.KernelIdeal.Frame
import proofs.«143951_j3908420239434_2_alg».proof.Proof.Spec
import proofs.«143951_j3908420239434_2_alg».proof.Proof.DistPayload
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.DistValue

open Cert.KernelIdeal Cert.KernelIdeal.Gen

theorem hz : (![0, 0] : Fin 2 → Nat) = fun _ => 0 := funext fun a => by fin_cases a <;> rfl

/-- The body's value at j against two feature arrays: if row (j 0) of the first block is row (i 0) of F1 and row
    (j 1) of the second block is row (i 1) of F2, it is dist F1 F2 at i. -/
theorem pay_dist (x0 : Vec Ideal S1024x64 .f32) (x1 : Vec Ideal S2048x64 .f32)
    (F1 F2 : Cert.PairDist.SF.Idx → EReal) (j : S1024x2048.Idx) (i : S8192x8192.Idx)
    (h0 : ∀ k : Fin 64, x0 (ix2 (j 0) k) = F1 (ix2 (i 0) k))
    (h1 : ∀ k : Fin 64, x1 (ix2 (j 1) k) = F2 (ix2 (i 1) k)) :
    k2_pay1 x0 x1 j = Cert.PairDist.dist F1 F2 i := by
  obtain ⟨p, q, rfl⟩ : ∃ (p : Fin 1024) (q : Fin 2048), j = ix2 p q := ⟨j 0, j 1, eq_ix2 j⟩
  refine (Cert.KernelIdeal.DistPayload.pay_apply x0 x1 p q).trans ?_
  unfold Cert.PairDist.dist Cert.PairDist.distAt Cert.PairDist.sqn Cert.PairDist.cross
  refine congrArg Cert.PairDist.gate ?_
  refine congrArg₂ (· - ·) (congrArg₂ (· + ·) (Finset.sum_congr rfl fun k _ => ?_) (Finset.sum_congr rfl fun k _ => ?_))
    (congrArg (Cert.PairDist.twoW * ·) (Finset.sum_congr rfl fun k _ => ?_))
  · rw [← h0 k]
  · rw [← h1 k]
  · rw [← h0 k, ← h1 k]

/-- The printed index maps over the grid: point t = 4·a + b reads row block a of the first array, row block b of the
    second, and writes tile (a, b). -/
theorem idx_facts : ∀ t : Fin cfg2.N, win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = t.val / 4 ∧ win2_2.index t (1 : Fin 2) = t.val % 4 :=
  (by decide +kernel : ∀ t : Fin grid2.N, _)

variable (V : (c : Dev nD) → (b : Ref sig .tc) → Buf (Elt Ideal) ((c : Thread nD τ).loc b))

/-- Window 0's block at point t is rows 1024·(t / 4) … of the first feature array. -/
theorem blk_f1 (c : Dev nD) (t : Fin cfg2.N) (x : S1024x64.Idx) (k : S8192x64.Idx)
    (hk0 : (k 0).val = t.val / 4 * 1024 + (x 0).val) (hk1 : (k 1).val = (x 1).val) :
    (iblk2 V c 0 t : Vec Ideal S1024x64 .f32) x = (V c main_v0 : S8192x64.Idx → Elt Ideal .f32) k := by
  obtain ⟨e0, e1, -⟩ := idx_facts t
  unfold iblk2
  rw [View.read_apply]
  show V c main_v0 _ = V c main_v0 _
  congr 1
  funext a
  apply Fin.ext
  match a with
  | ⟨0, _⟩ => show win2_0.index t 0 * 1024 + 1 * (x 0).val = (k 0).val; rw [e0, hk0]; omega
  | ⟨1, _⟩ => show win2_0.index t 1 * 64 + 1 * (x 1).val = (k 1).val; rw [e1, hk1]; omega

/-- Window 1's block at point t is rows 2048·(t % 4) … of the second feature array. -/
theorem blk_f2 (c : Dev nD) (t : Fin cfg2.N) (x : S2048x64.Idx) (k : S8192x64.Idx)
    (hk0 : (k 0).val = t.val % 4 * 2048 + (x 0).val) (hk1 : (k 1).val = (x 1).val) :
    (iblk2 V c 1 t : Vec Ideal S2048x64 .f32) x = (V c main_v1 : S8192x64.Idx → Elt Ideal .f32) k := by
  obtain ⟨-, -, e2, e3, -⟩ := idx_facts t
  unfold iblk2
  rw [View.read_apply]
  show V c main_v1 _ = V c main_v1 _
  congr 1
  funext a
  apply Fin.ext
  match a with
  | ⟨0, _⟩ => show win2_1.index t 0 * 2048 + 1 * (x 0).val = (k 0).val; rw [e2, hk0]; omega
  | ⟨1, _⟩ => show win2_1.index t 1 * 64 + 1 * (x 1).val = (k 1).val; rw [e3, hk1]; omega

/-- What point t writes back is tile t of dist of the two feature arrays the region found. -/
theorem flushed_eq (c : Dev nD) (t : Fin cfg2.N) :
    (dat2 V c).flushed 2 t
      = ((cfg2.win 2).blk t).view.read (Elt Ideal) (Cert.PairDist.dist (V c main_v0) (V c main_v1)) := by
  show (cfg2.win 2).cut (grid2.coords t) ((dat2 V c).after 2 t) = _
  rw [after2_2]
  unfold out2_2
  rw [View.canon_unit_zero hz]
  simp only [View.ld_unit_zero (S := S1024x64) hz, View.ld_unit_zero (S := S2048x64) hz]
  obtain ⟨-, -, -, -, e4, e5⟩ := idx_facts t
  funext j
  show k2_pay1 (iblk2 V c 0 t) (iblk2 V c 1 t) j
    = Cert.PairDist.dist (V c main_v0) (V c main_v1) (((cfg2.win 2).blk t).view.emb j)
  refine pay_dist (iblk2 V c 0 t) (iblk2 V c 1 t) (V c main_v0) (V c main_v1) j
    (((cfg2.win 2).blk t).view.emb j) (fun k => ?_) (fun k => ?_)
  · refine blk_f1 V c t _ _ ?_ rfl
    show win2_2.index t 0 * 1024 + 1 * (j 0).val = t.val / 4 * 1024 + (j 0).val
    rw [e4]; omega
  · refine blk_f2 V c t _ _ ?_ rfl
    show win2_2.index t 1 * 2048 + 1 * (j 1).val = t.val % 4 * 2048 + (j 1).val
    rw [e5]; omega

/-- An index of the output array is in point t's tile iff each coordinate is in the tile's range. -/
theorem mem_blk (t : Fin cfg2.N) (i : S8192x8192.Idx) :
    i ∈ ((cfg2.win 2).blk t).view.set ↔ ∀ a : Fin 2, win2_2.index t a * S1024x2048.size a ≤ (i a).val
      ∧ (i a).val < win2_2.index t a * S1024x2048.size a + S1024x2048.size a := by
  show i ∈ ((View.whole main_v2).slice (win2_2.rect t)).set ↔ _
  rw [View.set_slice_whole, Rect.mem_set_unit]
  exact Iff.rfl

/-- Entry (r, col) of the output lies in the tile of point 4·(r / 1024) + col / 2048. -/
theorem cover (i : S8192x8192.Idx) :
    ∃ t : Fin cfg2.N, (cfg2.win 2).flush t = true ∧ i ∈ ((cfg2.win 2).blk t).view.set := by
  have hi0 : (i 0).val < 8192 := (i 0).isLt
  have hi1 : (i 1).val < 8192 := (i 1).isLt
  have hN : cfg2.N = 32 := N_2
  refine ⟨⟨(i 0).val / 1024 * 4 + (i 1).val / 2048, by rw [hN]; omega⟩, flush2_2 _, ?_⟩
  obtain ⟨-, -, -, -, e4, e5⟩ := idx_facts ⟨(i 0).val / 1024 * 4 + (i 1).val / 2048, by rw [hN]; omega⟩
  rw [mem_blk]
  intro a
  match a with
  | ⟨0, _⟩ =>
    show win2_2.index _ 0 * 1024 ≤ (i 0).val ∧ (i 0).val < win2_2.index _ 0 * 1024 + 1024
    rw [e4]
    show ((i 0).val / 1024 * 4 + (i 1).val / 2048) / 4 * 1024 ≤ (i 0).val
      ∧ (i 0).val < ((i 0).val / 1024 * 4 + (i 1).val / 2048) / 4 * 1024 + 1024
    omega
  | ⟨1, _⟩ =>
    show win2_2.index _ 1 * 2048 ≤ (i 1).val ∧ (i 1).val < win2_2.index _ 1 * 2048 + 2048
    rw [e5]
    show ((i 0).val / 1024 * 4 + (i 1).val / 2048) % 4 * 2048 ≤ (i 1).val
      ∧ (i 1).val < ((i 0).val / 1024 * 4 + (i 1).val / 2048) % 4 * 2048 + 2048
    omega

/-- The output array after the pipeline: dist of the two feature arrays as the region found them. -/
theorem final2 (c : Dev nD) :
    (dat2 V c).arrAt 2 cfg2.N = Cert.PairDist.dist (V c main_v0) (V c main_v1) :=
  (dat2 V c).arrAt_eq_of_cover 2 _ (fun t _ => flushed_eq V c t) cover

end Cert.KernelIdeal.DistValue

end
-- ==== Proof.KernelValue.lean ====
/-
  The idealized kernel program's result as ONE function of its three arguments: region by region, the buffer
  contents at each boundary are read back to the launch memory — the first projection leaves feat x1 w in its output,
  the second feat x2 w (its inputs still as launched: no region writes an argument), and the pairwise stage, entered
  on those two feature arrays, leaves dist of them.
-/
import proofs.«143951_j3908420239434_2_alg».proof.Proof.KernelRun
import proofs.«143951_j3908420239434_2_alg».proof.Proof.ProjValue0
import proofs.«143951_j3908420239434_2_alg».proof.Proof.ProjValue1
import proofs.«143951_j3908420239434_2_alg».proof.Proof.DistBlocks

noncomputable section

open Idealize.ShloMosaic Idealize.ShloMosaic.TcCoe Idealize.SL.Sem
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The second point cloud is still as launched when the second region is entered: the first region's arrays are
    the first point cloud, the weights and its own output. -/
theorem entry1_x (c : Dev nD) : V1 m ρ c main_arg1 = m ((c.tc : Thread nD τ).loc main_arg1) :=
  W1_of_ne m ρ c main_arg1 (by decide)

/-- The weights are still as launched when the second region is entered: the first region only read them. -/
theorem entry1_w (c : Dev nD) : V1 m ρ c main_arg2 = m ((c.tc : Thread nD τ).loc main_arg2) :=
  (W1_arr m ρ c 1).trans (((dat0 (V0 m ρ) c).arrAt_in 1 rfl _).trans (A_eq0 (V0 m ρ) c 1))

/-- The first feature array when the third region is entered: what the first region left, untouched by the second. -/
theorem entry2_f1 (c : Dev nD) : V2 m ρ c main_v0
    = Cert.PairDist.feat (m ((c.tc : Thread nD τ).loc main_arg0)) (m ((c.tc : Thread nD τ).loc main_arg2)) :=
  (W2_of_ne m ρ c main_v0 (by decide)).trans ((W1_arr m ρ c 2).trans (Cert.KernelIdeal.ProjValue0.final (V0 m ρ) c))

/-- The second feature array when the third region is entered: what the second region left. -/
theorem entry2_f2 (c : Dev nD) : V2 m ρ c main_v1
    = Cert.PairDist.feat (m ((c.tc : Thread nD τ).loc main_arg1)) (m ((c.tc : Thread nD τ).loc main_arg2)) :=
  (W2_arr m ρ c 2).trans ((Cert.KernelIdeal.ProjValue1.final (V1 m ρ) c).trans
    (congrArg₂ Cert.PairDist.feat (entry1_x m ρ c) (entry1_w m ρ c)))

/-- The result array after the last region. -/
theorem result_eq (c : Dev nD) : W3 m ρ c (Proc.devRef .tc main_v2)
    = Cert.PairDist.whole (m ((c.tc : Thread nD τ).loc main_arg0)) (m ((c.tc : Thread nD τ).loc main_arg1))
        (m ((c.tc : Thread nD τ).loc main_arg2)) :=
  (W3_arr m ρ c 2).trans ((Cert.KernelIdeal.DistValue.final2 (V2 m ρ) c).trans
    (congrArg₂ Cert.PairDist.dist (entry2_f1 m ρ c) (entry2_f2 m ρ c)))

/-- The run, read: the result array at the whole computation of the launch contents, the arguments unchanged. -/
theorem run : θ_run defs (onTc (τ := τ) (main (F := Ideal))) ⟨m, fun _ => 0, ρ⟩ (fun r => ∀ c : Dev nD,
      r.2.mem ((c.tc : Thread nD τ).loc main_v2)
        = Cert.PairDist.whole (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩)
    (Cert.KernelIdeal.RunValue.run_values m ρ)

end Cert.KernelIdeal.Whole

end
-- ==== Proof.RefTerm.lean ====
/-
  The reference program's result as ONE term of its three argument arrays: its host operations composed in program
  order (the two outlined rectifier calls written out at their call sites).
-/
import proofs.«143951_j3908420239434_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- The outlined rectifier on a feature array: keep where a ≥ 0, else the slope constant times a. -/
def leakyH (a : FVec F S8192x64 .f32) : FVec F S8192x64 .f32 :=
  select (cmpf .oge a (broadcastInDim S8192x64 ![] bcast_S_S8192x64 (constant S_ .f32 0x00000000#32))) a
    (mulf (broadcastInDim S8192x64 ![] bcast_S_S8192x64 (id (constant S_ .f32 0x3E4CCCCD#32))) a)

/-- A point cloud's features: the host matrix product with the weights, rectified. -/
def featH (x : FVec F S8192x256 .f32) (w : FVec F S256x64 .f32) : FVec F S8192x64 .f32 :=
  leakyH (Host.dotGeneral dot_S8192x256_S256x64_S8192x64_1_0_0_1_n_n none x w)

/-- The pairwise stage on two feature arrays, operation by operation. -/
def distH (f1 f2 : FVec F S8192x64 .f32) : FVec F S8192x8192 .f32 :=
  Host.divf (broadcastInDim S8192x8192 ![] bcast_S_S8192x8192 (constant S_ .f32 0x3F800000#32))
    (addf (broadcastInDim S8192x8192 ![] bcast_S_S8192x8192 (constant S_ .f32 0x3F800000#32))
      (Host.exp (Host.negf (Host.negf (Host.sqrt
        (addf
          (maximumf
            (subf
              (addf
                (broadcastInDim S8192x8192 ![0, 1] bcast_S8192x1_S8192x8192_0_1
                  (broadcastInDim S8192x1 ![0] bcast_S8192_S8192x1_0
                    (Host.reduceAdd (mulf f1 f1) (constant S_ .f32 0x00000000#32) reducesTo_S8192x64_S8192_d1 h_S_)))
                (broadcastInDim S8192x8192 ![0, 1] bcast_S1x8192_S8192x8192_0_1
                  (broadcastInDim S1x8192 ![1] bcast_S8192_S1x8192_1
                    (Host.reduceAdd (mulf f2 f2) (constant S_ .f32 0x00000000#32) reducesTo_S8192x64_S8192_d1 h_S_))))
              (mulf (broadcastInDim S8192x8192 ![] bcast_S_S8192x8192 (constant S_ .f32 0x40000000#32))
                (Host.dotGeneral dot_S8192x64_S64x8192_S8192x8192_1_0_0_1_n_n none f1
                  (transpose S64x8192 [1, 0] f2 transposes_S8192x64_S64x8192_1_0))))
            (broadcastInDim S8192x8192 ![] bcast_S_S8192x8192 (constant S_ .f32 0x00000000#32)))
          (broadcastInDim S8192x8192 ![] bcast_S_S8192x8192 (constant S_ .f32 0x2B8CBCCC#32))))))))

/-- The reference's result from its arguments. -/
def refTerm (x1 x2 : FVec F S8192x256 .f32) (w : FVec F S256x64 .f32) : FVec F S8192x8192 .f32 :=
  distH (featH x1 w) (featH x2 w)

end Cert.ReferenceIdeal.RefTerm

end
-- ==== Proof.RefRun.lean ====
/-
  The reference program's run, read back: @main as the list of its 51 host operations in program order — the two
  outlined rectifier calls written out at their call sites over each call's own buffers, seven operations each
  (the zero, its broadcast, the comparison, the slope's conversion, its broadcast, the product, the select) — and what
  every weakly fair execution leaves in the result buffer: the operations' composed term of the three argument
  arrays, the arguments unchanged.
-/
import proofs.«143951_j3908420239434_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 51 operations in order, the calls unfolded: each rectifier call is seven operations into that call's
    buffers, its select writing the buffer the call's result becomes. -/
abbrev ops : List (HloOp τ sig (Elt F)) :=
  [ binary main_arg0 main_arg2 main_v0 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x64 ![] bcast_S_S8192x64),
    TRef.binary (.of main_v0 : TRef sig ⟨S8192x64, .f32⟩) main_call0.v0 main_call0.v1 (cmpf .oge),
    TRef.unary (.of main_cst : TRef sig ⟨S_, .f32⟩) main_call0.v2 id,
    TRef.unary main_call0.v2 main_call0.v3 (broadcastInDim S8192x64 ![] bcast_S_S8192x64),
    TRef.binary main_call0.v3 (.of main_v0 : TRef sig ⟨S8192x64, .f32⟩) main_call0.v4 mulf,
    TRef.ternary main_call0.v1 (.of main_v0 : TRef sig ⟨S8192x64, .f32⟩) main_call0.v4 main_call0.call0.v0 select,
    binary main_arg1 main_arg2 main_v2 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    nullary main_cst_0 (constant S_ .f32 0x3E4CCCCD#32),
    TRef.nullary main_call1.cst (constant S_ .f32 0x00000000#32),
    TRef.unary main_call1.cst main_call1.v0 (broadcastInDim S8192x64 ![] bcast_S_S8192x64),
    TRef.binary (.of main_v2 : TRef sig ⟨S8192x64, .f32⟩) main_call1.v0 main_call1.v1 (cmpf .oge),
    TRef.unary (.of main_cst_0 : TRef sig ⟨S_, .f32⟩) main_call1.v2 id,
    TRef.unary main_call1.v2 main_call1.v3 (broadcastInDim S8192x64 ![] bcast_S_S8192x64),
    TRef.binary main_call1.v3 (.of main_v2 : TRef sig ⟨S8192x64, .f32⟩) main_call1.v4 mulf,
    TRef.ternary main_call1.v1 (.of main_v2 : TRef sig ⟨S8192x64, .f32⟩) main_call1.v4 main_call1.call0.v0 select,
    binary main_v1 main_v1 main_v4 (mulf : (⟨S8192x64, .f32⟩ : BufTy).Contents (Elt F) → (⟨S8192x64, .f32⟩ : BufTy).Contents (Elt F) → (⟨S8192x64, .f32⟩ : BufTy).Contents (Elt F)),
    nullary main_cst_1 (constant S_ .f32 0x00000000#32),
    binary main_v4 main_cst_1 main_v5 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v5 main_v6 (broadcastInDim S8192x1 ![0] bcast_S8192_S8192x1_0 : (⟨S8192, .f32⟩ : BufTy).Contents (Elt F) → (⟨S8192x1, .f32⟩ : BufTy).Contents (Elt F)),
    binary main_v3 main_v3 main_v7 (mulf : (⟨S8192x64, .f32⟩ : BufTy).Contents (Elt F) → (⟨S8192x64, .f32⟩ : BufTy).Contents (Elt F) → (⟨S8192x64, .f32⟩ : BufTy).Contents (Elt F)),
    nullary main_cst_2 (constant S_ .f32 0x00000000#32),
    binary main_v7 main_cst_2 main_v8 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v8 main_v9 (broadcastInDim S1x8192 ![1] bcast_S8192_S1x8192_1 : (⟨S8192, .f32⟩ : BufTy).Contents (Elt F) → (⟨S1x8192, .f32⟩ : BufTy).Contents (Elt F)),
    unary main_v6 main_v10 (broadcastInDim S8192x8192 ![0, 1] bcast_S8192x1_S8192x8192_0_1 : (⟨S8192x1, .f32⟩ : BufTy).Contents (Elt F) → (⟨S8192x8192, .f32⟩ : BufTy).Contents (Elt F)),
    unary main_v9 main_v11 (broadcastInDim S8192x8192 ![0, 1] bcast_S1x8192_S8192x8192_0_1 : (⟨S1x8192, .f32⟩ : BufTy).Contents (Elt F) → (⟨S8192x8192, .f32⟩ : BufTy).Contents (Elt F)),
    binary main_v10 main_v11 main_v12 (addf : (⟨S8192x8192, .f32⟩ : BufTy).Contents (Elt F) → (⟨S8192x8192, .f32⟩ : BufTy).Contents (Elt F) → (⟨S8192x8192, .f32⟩ : BufTy).Contents (Elt F)),
    unary main_v3 main_v13 ((transpose S64x8192 [1, 0] · transposes_S8192x64_S64x8192_1_0) : (⟨S8192x64, .f32⟩ : BufTy).Contents (Elt F) → (⟨S64x8192, .f32⟩ : BufTy).Contents (Elt F)),
    binary main_v1 main_v13 main_v14 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    nullary main_cst_3 (constant S_ .f32 0x40000000#32),
    unary main_cst_3 main_v15 (broadcastInDim S8192x8192 ![] bcast_S_S8192x8192 : (⟨S_, .f32⟩ : BufTy).Contents (Elt F) → (⟨S8192x8192, .f32⟩ : BufTy).Contents (Elt F)),
    binary main_v15 main_v14 main_v16 (mulf : (⟨S8192x8192, .f32⟩ : BufTy).Contents (Elt F) → (⟨S8192x8192, .f32⟩ : BufTy).Contents (Elt F) → (⟨S8192x8192, .f32⟩ : BufTy).Contents (Elt F)),
    binary main_v12 main_v16 main_v17 (subf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x00000000#32),
    unary main_cst_4 main_v18 (broadcastInDim S8192x8192 ![] bcast_S_S8192x8192 : (⟨S_, .f32⟩ : BufTy).Contents (Elt F) → (⟨S8192x8192, .f32⟩ : BufTy).Contents (Elt F)),
    binary main_v17 main_v18 main_v19 (maximumf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x2B8CBCCC#32),
    unary main_cst_5 main_v20 (broadcastInDim S8192x8192 ![] bcast_S_S8192x8192 : (⟨S_, .f32⟩ : BufTy).Contents (Elt F) → (⟨S8192x8192, .f32⟩ : BufTy).Contents (Elt F)),
    binary main_v19 main_v20 main_v21 (addf : (⟨S8192x8192, .f32⟩ : BufTy).Contents (Elt F) → (⟨S8192x8192, .f32⟩ : BufTy).Contents (Elt F) → (⟨S8192x8192, .f32⟩ : BufTy).Contents (Elt F)),
    unary main_v21 main_v22 (Host.sqrt : (⟨S8192x8192, .f32⟩ : BufTy).Contents (Elt F) → (⟨S8192x8192, .f32⟩ : BufTy).Contents (Elt F)),
    unary main_v22 main_v23 (Host.negf : (⟨S8192x8192, .f32⟩ : BufTy).Contents (Elt F) → (⟨S8192x8192, .f32⟩ : BufTy).Contents (Elt F)),
    unary main_v23 main_v24 (Host.negf : (⟨S8192x8192, .f32⟩ : BufTy).Contents (Elt F) → (⟨S8192x8192, .f32⟩ : BufTy).Contents (Elt F)),
    unary main_v24 main_v25 (Host.exp : (⟨S8192x8192, .f32⟩ : BufTy).Contents (Elt F) → (⟨S8192x8192, .f32⟩ : BufTy).Contents (Elt F)),
    nullary main_cst_6 (constant S_ .f32 0x3F800000#32),
    unary main_cst_6 main_v26 (broadcastInDim S8192x8192 ![] bcast_S_S8192x8192 : (⟨S_, .f32⟩ : BufTy).Contents (Elt F) → (⟨S8192x8192, .f32⟩ : BufTy).Contents (Elt F)),
    binary main_v26 main_v25 main_v27 (addf : (⟨S8192x8192, .f32⟩ : BufTy).Contents (Elt F) → (⟨S8192x8192, .f32⟩ : BufTy).Contents (Elt F) → (⟨S8192x8192, .f32⟩ : BufTy).Contents (Elt F)),
    nullary main_cst_7 (constant S_ .f32 0x3F800000#32),
    unary main_cst_7 main_v28 (broadcastInDim S8192x8192 ![] bcast_S_S8192x8192 : (⟨S_, .f32⟩ : BufTy).Contents (Elt F) → (⟨S8192x8192, .f32⟩ : BufTy).Contents (Elt F)),
    binary main_v28 main_v27 main_v29 (Host.divf : (⟨S8192x8192, .f32⟩ : BufTy).Contents (Elt F) → (⟨S8192x8192, .f32⟩ : BufTy).Contents (Elt F) → (⟨S8192x8192, .f32⟩ : BufTy).Contents (Elt F)) ]

-- fifty-one binds re-associated: the rewrite under the chain recurses once per statement
set_option maxRecDepth 4096 in
/-- @main is that straight line: the two functions' definitions unfolded at their calls, both sides are one chain of
    operation steps once sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub ..⟩

set_option maxRecDepth 8192 in
/-- The result buffer after the 51 operations holds the composed term of the three arguments' contents. Each
    operation's result is read at its own buffer and every other buffer keeps what it held, in one pass; a value
    carried between a call's typed buffer and the signature's is transported along an equation of a type with itself,
    which is the identity; what remains is the four definitions of the composed term written out, symbol for symbol. -/
theorem out_eq (V : Valuation τ sig (Elt F)) :
    after ops V (Proc.devRef .tc main_v29)
      = RefTerm.refTerm (V (Proc.devRef .tc main_arg0)) (V (Proc.devRef .tc main_arg1)) (V (Proc.devRef .tc main_arg2)) := by
  after_results_simp
  simp only [TRef.toBuf, TRef.ofBuf, cast_eq, RefTerm.refTerm, RefTerm.distH, RefTerm.featH, RefTerm.leakyH]

/-- No operation writes an argument's buffer: each keeps its contents. -/
theorem arg0_eq (V : Valuation τ sig (Elt F)) :
    after ops V (Proc.devRef .tc main_arg0) = V (Proc.devRef .tc main_arg0) := by
  after_results_simp

theorem arg1_eq (V : Valuation τ sig (Elt F)) :
    after ops V (Proc.devRef .tc main_arg1) = V (Proc.devRef .tc main_arg1) := by
  after_results_simp

theorem arg2_eq (V : Valuation τ sig (Elt F)) :
    after ops V (Proc.devRef .tc main_arg2) = V (Proc.devRef .tc main_arg2) := by
  after_results_simp

/-- On every device, for any float values, from any memory with zero counters: every weakly fair execution of
    @main terminates with the result buffer at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = Cert.ReferenceIdeal.RefTerm.refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v29).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's composed term is the specification, index by index, over the extended reals.

  Three readings do the work. A host matrix product with one contracted axis, read at an index, is the plain sum over
  that axis of the products of the operands' entries. A host row sum from a zero initial value is the plain sum over
  the row. The host's rectifier keeps a where a ≥ 0 and the specification's where a > 0: the two differ only at a = 0,
  where the other branch is the slope times 0, which is 0 too. The host spells the logistic function out as
  1 / (1 + exp (−(−s))); the specification's is, by definition, 1 / (1 + exp (−(0 − s))), and 0 − s = −s.
-/
import proofs.«143951_j3908420239434_2_alg».proof.Proof.RefTerm
import proofs.«143951_j3908420239434_2_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The rectifier: testing a ≥ 0 or a > 0 gives the same value -/

/-- At a = 0 the two tests disagree, and there the branches agree: a = 0 = s · 0. -/
theorem select_ge_eq_select_gt (s a : EReal) :
    Scalar.select (Ideal.cmp .oge a (Ideal.ofBits .f32 0x00000000#32)) a (s * a)
      = Scalar.select (Ideal.cmp .ogt a (Ideal.ofBits .f32 0x00000000#32)) a (s * a) := by
  rw [Ideal.ofBits_zero_f32]
  unfold Ideal.cmp
  by_cases hpos : (0 : EReal) < a
  · have hle : (0 : EReal) ≤ a := le_of_lt hpos
    simp only [hpos, hle, decide_true, BitVec.ofBool_true, select_one]
  · by_cases hzero : a = 0
    · subst hzero
      rw [mul_zero]
      unfold Scalar.select
      simp only [ite_self]
    · have hle : ¬ (0 : EReal) ≤ a := fun h => hpos (lt_of_le_of_ne h (Ne.symm hzero))
      simp only [hpos, hle, decide_false, BitVec.ofBool_false, select_zero]

/-! ## A host matrix product read at an index -/

/-- The first product's left operand reads (row of the result, contracted coordinate). -/
theorem lhs_feat_0 (i : S8192x64.Idx) (q : dot_S8192x256_S256x64_S8192x64_1_0_0_1_n_n.contr.Idx) :
    (dot_S8192x256_S256x64_S8192x64_1_0_0_1_n_n.lhsIdx i q 0).val = (i 0).val := by
  unfold DotDims.lhsIdx
  rw [dif_neg (show ¬(0 : Fin S8192x256.rank) ∈ dot_S8192x256_S256x64_S8192x64_1_0_0_1_n_n.lhsBatch by decide),
    dif_pos (show (0 : Fin S8192x256.rank) ∈ dot_S8192x256_S256x64_S8192x64_1_0_0_1_n_n.lhsNonContracting by decide)]
  rfl
theorem lhs_feat_1 (i : S8192x64.Idx) (q : dot_S8192x256_S256x64_S8192x64_1_0_0_1_n_n.contr.Idx) :
    (dot_S8192x256_S256x64_S8192x64_1_0_0_1_n_n.lhsIdx i q 1).val = (q ⟨0, by decide⟩).val :=
  dot_S8192x256_S256x64_S8192x64_1_0_0_1_n_n.lhsIdx_val_of_single rfl i q
/-- The right operand reads (contracted coordinate, column of the result). -/
theorem rhs_feat_0 (i : S8192x64.Idx) (q : dot_S8192x256_S256x64_S8192x64_1_0_0_1_n_n.contr.Idx) :
    (dot_S8192x256_S256x64_S8192x64_1_0_0_1_n_n.rhsIdx i q 0).val = (q ⟨0, by decide⟩).val :=
  dot_S8192x256_S256x64_S8192x64_1_0_0_1_n_n.rhsIdx_val_of_single rfl i q
theorem rhs_feat_1 (i : S8192x64.Idx) (q : dot_S8192x256_S256x64_S8192x64_1_0_0_1_n_n.contr.Idx) :
    (dot_S8192x256_S256x64_S8192x64_1_0_0_1_n_n.rhsIdx i q 1).val = (i 1).val := by
  unfold DotDims.rhsIdx
  rw [dif_neg (show ¬(1 : Fin S256x64.rank) ∈ dot_S8192x256_S256x64_S8192x64_1_0_0_1_n_n.rhsBatch by decide),
    dif_pos (show (1 : Fin S256x64.rank) ∈ dot_S8192x256_S256x64_S8192x64_1_0_0_1_n_n.rhsNonContracting by decide)]
  rfl

/-- The [8192, 256] × [256, 64] product at (r, h) is the sum over k < 256 of x (r, k) · w (k, h). -/
theorem dot_feat_apply (x : FVec Ideal S8192x256 .f32) (w : FVec Ideal S256x64 .f32) (r : Fin 8192) (h : Fin 64) :
    Host.dotGeneral dot_S8192x256_S256x64_S8192x64_1_0_0_1_n_n none x w (ix2 r h)
      = ∑ k : Fin 256, x (ix2 r k) * w (ix2 k h) := by
  simp only [Host.dotGeneral]
  rw [Ideal.dotGeneral_apply,
    ← Equiv.sum_comp (ValueIdx.contrEquiv1 dot_S8192x256_S256x64_S8192x64_1_0_0_1_n_n 256 rfl rfl).symm]
  refine Finset.sum_congr rfl fun k _ => ?_
  have hk := ValueIdx.contrEquiv1_symm_val dot_S8192x256_S256x64_S8192x64_1_0_0_1_n_n 256 rfl rfl k
  have el : dot_S8192x256_S256x64_S8192x64_1_0_0_1_n_n.lhsIdx (ix2 r h)
      ((ValueIdx.contrEquiv1 dot_S8192x256_S256x64_S8192x64_1_0_0_1_n_n 256 rfl rfl).symm k) = ix2 r k :=
    funext fun a => Fin.ext (by
      match a with
      | ⟨0, _⟩ => exact lhs_feat_0 _ _
      | ⟨1, _⟩ => exact (lhs_feat_1 _ _).trans hk)
  have er : dot_S8192x256_S256x64_S8192x64_1_0_0_1_n_n.rhsIdx (ix2 r h)
      ((ValueIdx.contrEquiv1 dot_S8192x256_S256x64_S8192x64_1_0_0_1_n_n 256 rfl rfl).symm k) = ix2 k h :=
    funext fun a => Fin.ext (by
      match a with
      | ⟨0, _⟩ => exact (rhs_feat_0 _ _).trans hk
      | ⟨1, _⟩ => exact rhs_feat_1 _ _)
  rw [el, er]

/-! ## The features -/

/-- The host rectifier at an index: a select on a ≥ 0 between a and the slope times a. -/
theorem leakyH_apply (a : FVec Ideal S8192x64 .f32) (i : S8192x64.Idx) :
    RefTerm.leakyH (F := Ideal) a i
      = Scalar.select (Ideal.cmp .oge (a i) (Ideal.ofBits .f32 0x00000000#32)) (a i)
          (Ideal.ofBits .f32 0x3E4CCCCD#32 * a i) := rfl

theorem featH_eq (x : FVec Ideal S8192x256 .f32) (w : FVec Ideal S256x64 .f32) :
    Cert.ReferenceIdeal.RefTerm.featH (F := Ideal) x w = Cert.PairDist.feat x w := by
  funext i
  obtain ⟨r, h, rfl⟩ : ∃ (r : Fin 8192) (h : Fin 64), i = ix2 r h := ⟨i 0, i 1, eq_ix2 i⟩
  unfold RefTerm.featH
  rw [leakyH_apply, dot_feat_apply]
  exact select_ge_eq_select_gt _ _

/-! ## The second matrix product, against a transposed operand -/

theorem lhs_dist_0 (i : S8192x8192.Idx) (q : dot_S8192x64_S64x8192_S8192x8192_1_0_0_1_n_n.contr.Idx) :
    (dot_S8192x64_S64x8192_S8192x8192_1_0_0_1_n_n.lhsIdx i q 0).val = (i 0).val := by
  unfold DotDims.lhsIdx
  rw [dif_neg (show ¬(0 : Fin S8192x64.rank) ∈ dot_S8192x64_S64x8192_S8192x8192_1_0_0_1_n_n.lhsBatch by decide),
    dif_pos (show (0 : Fin S8192x64.rank) ∈ dot_S8192x64_S64x8192_S8192x8192_1_0_0_1_n_n.lhsNonContracting by decide)]
  rfl
theorem lhs_dist_1 (i : S8192x8192.Idx) (q : dot_S8192x64_S64x8192_S8192x8192_1_0_0_1_n_n.contr.Idx) :
    (dot_S8192x64_S64x8192_S8192x8192_1_0_0_1_n_n.lhsIdx i q 1).val = (q ⟨0, by decide⟩).val :=
  dot_S8192x64_S64x8192_S8192x8192_1_0_0_1_n_n.lhsIdx_val_of_single rfl i q
theorem rhs_dist_0 (i : S8192x8192.Idx) (q : dot_S8192x64_S64x8192_S8192x8192_1_0_0_1_n_n.contr.Idx) :
    (dot_S8192x64_S64x8192_S8192x8192_1_0_0_1_n_n.rhsIdx i q 0).val = (q ⟨0, by decide⟩).val :=
  dot_S8192x64_S64x8192_S8192x8192_1_0_0_1_n_n.rhsIdx_val_of_single rfl i q
theorem rhs_dist_1 (i : S8192x8192.Idx) (q : dot_S8192x64_S64x8192_S8192x8192_1_0_0_1_n_n.contr.Idx) :
    (dot_S8192x64_S64x8192_S8192x8192_1_0_0_1_n_n.rhsIdx i q 1).val = (i 1).val := by
  unfold DotDims.rhsIdx
  rw [dif_neg (show ¬(1 : Fin S64x8192.rank) ∈ dot_S8192x64_S64x8192_S8192x8192_1_0_0_1_n_n.rhsBatch by decide),
    dif_pos (show (1 : Fin S64x8192.rank) ∈ dot_S8192x64_S64x8192_S8192x8192_1_0_0_1_n_n.rhsNonContracting by decide)]
  rfl

/-- The [8192, 64] × [64, 8192] product at (r, c) is the sum over k < 64 of f (r, k) · g (k, c). -/
theorem dot_dist_apply (f : FVec Ideal S8192x64 .f32) (g : FVec Ideal S64x8192 .f32) (r c : Fin 8192) :
    Host.dotGeneral dot_S8192x64_S64x8192_S8192x8192_1_0_0_1_n_n none f g (ix2 r c) = ∑ k : Fin 64, f (ix2 r k) * g (ix2 k c) := by
  simp only [Host.dotGeneral]
  rw [Ideal.dotGeneral_apply, ← Equiv.sum_comp (ValueIdx.contrEquiv1 dot_S8192x64_S64x8192_S8192x8192_1_0_0_1_n_n 64 rfl rfl).symm]
  refine Finset.sum_congr rfl fun k _ => ?_
  have hk := ValueIdx.contrEquiv1_symm_val dot_S8192x64_S64x8192_S8192x8192_1_0_0_1_n_n 64 rfl rfl k
  have el : dot_S8192x64_S64x8192_S8192x8192_1_0_0_1_n_n.lhsIdx (ix2 r c) ((ValueIdx.contrEquiv1 dot_S8192x64_S64x8192_S8192x8192_1_0_0_1_n_n 64 rfl rfl).symm k) = ix2 r k :=
    funext fun a => Fin.ext (by
      match a with
      | ⟨0, _⟩ => exact lhs_dist_0 _ _
      | ⟨1, _⟩ => exact (lhs_dist_1 _ _).trans hk)
  have er : dot_S8192x64_S64x8192_S8192x8192_1_0_0_1_n_n.rhsIdx (ix2 r c) ((ValueIdx.contrEquiv1 dot_S8192x64_S64x8192_S8192x8192_1_0_0_1_n_n 64 rfl rfl).symm k) = ix2 k c :=
    funext fun a => Fin.ext (by
      match a with
      | ⟨0, _⟩ => exact (rhs_dist_0 _ _).trans hk
      | ⟨1, _⟩ => exact rhs_dist_1 _ _)
  rw [el, er]

/-- Against the transpose of f2 the product at (r, c) is the inner product of row r of f1 with row c of f2. -/
theorem cross_apply (f1 f2 : FVec Ideal S8192x64 .f32) (r c : Fin 8192) :
    Host.dotGeneral dot_S8192x64_S64x8192_S8192x8192_1_0_0_1_n_n none f1 (transpose S64x8192 [1, 0] f2 transposes_S8192x64_S64x8192_1_0) (ix2 r c)
      = Cert.PairDist.cross f1 f2 r c := by
  rw [dot_dist_apply]
  unfold Cert.PairDist.cross
  exact Finset.sum_congr rfl fun k _ => congrArg (f1 (ix2 r k) * ·) (transpose_ix2_apply f2 _ k c)

/-! ## The row sums of squares and their two broadcasts -/

/-- The host sum of f · f over axis 1 from the zero word, at row r, is the squared norm of that row. -/
theorem rowsum_apply (f : FVec Ideal S8192x64 .f32) (r : Fin 8192) :
    Host.reduceAdd (F := Ideal) (mulf f f) (constant (F := Ideal) S_ .f32 0x00000000#32)
        reducesTo_S8192x64_S8192_d1 h_S_ (ix1 r)
      = Cert.PairDist.sqn f r := by
  simp only [Host.reduceAdd, Ideal.hostReduceAdd_def]
  rw [Ideal.hostReduceAdd_single reducesTo_S8192x64_S8192_d1 (by decide), constant_apply, Ideal.ofBits_zero_f32,
    zero_add]
  unfold Cert.PairDist.sqn
  refine Finset.sum_congr rfl fun k _ => ?_
  rw [mulf_apply]
  exact congrArg (fun j => f j * f j)
    (funext fun a => Fin.ext (by match a with | ⟨0, _⟩ => rfl | ⟨1, _⟩ => rfl))

/-- A vector over the rows, made a column and spread over the columns, reads its entry at the row. -/
theorem bcast_rows_apply (v : FVec Ideal S8192 .f32) (r c : Fin 8192) :
    broadcastInDim S8192x8192 ![0, 1] bcast_S8192x1_S8192x8192_0_1
        (broadcastInDim S8192x1 ![0] bcast_S8192_S8192x1_0 v) (ix2 r c) = v (ix1 r) :=
  (broadcastInDim_apply _ _ _ (ix2 r c) (ix2 r (0 : Fin 1))
      fun a => match a with | ⟨0, _⟩ => rfl | ⟨1, _⟩ => rfl).trans
    (broadcastInDim_apply _ _ _ (ix2 r (0 : Fin 1)) (ix1 r) fun a => match a with | ⟨0, _⟩ => rfl)

/-- A vector over the columns, made a row and spread over the rows, reads its entry at the column. -/
theorem bcast_cols_apply (v : FVec Ideal S8192 .f32) (r c : Fin 8192) :
    broadcastInDim S8192x8192 ![0, 1] bcast_S1x8192_S8192x8192_0_1
        (broadcastInDim S1x8192 ![1] bcast_S8192_S1x8192_1 v) (ix2 r c) = v (ix1 c) :=
  (broadcastInDim_apply _ _ _ (ix2 r c) (ix2 (0 : Fin 1) c)
      fun a => match a with | ⟨0, _⟩ => rfl | ⟨1, _⟩ => rfl).trans
    (broadcastInDim_apply _ _ _ (ix2 (0 : Fin 1) c) (ix1 c) fun a => match a with | ⟨0, _⟩ => rfl)

/-! ## The logistic function spelt out -/

/-- 1 / (1 + exp (−(−s))) with the one word for 1 is the logistic function at 0 − s, for s the root the gate takes. -/
theorem host_logistic_eq (q : EReal) :
    Ideal.div (Ideal.ofBits .f32 0x3F800000#32)
        (Ideal.ofBits .f32 0x3F800000#32 + Ideal.exp (-(-(Ideal.sqrt
          (max q (Ideal.ofBits .f32 0x00000000#32) + Ideal.ofBits .f32 0x2B8CBCCC#32)))))
      = Cert.PairDist.gate q := by
  show _ = Ideal.div 1 (1 + Ideal.exp (-(Ideal.ofBits .f32 0x00000000#32 - Ideal.sqrt
    (max q (Ideal.ofBits .f32 0x00000000#32) + Ideal.ofBits .f32 0x2B8CBCCC#32))))
  rw [Ideal.ofBits_one_f32, Ideal.ofBits_zero_f32, zero_sub]

/-! ## The pairwise stage -/

/-- The host's exponential, negation and square root at an index are the extended reals' own. -/
theorem hostExp_apply {s : Shape} (x : FVec Ideal s .f32) (i : s.Idx) : Host.exp x i = Ideal.exp (x i) := rfl
theorem hostNegf_apply {s : Shape} (x : FVec Ideal s .f32) (i : s.Idx) : Host.negf x i = -(x i) := rfl
theorem hostSqrt_apply {s : Shape} (x : FVec Ideal s .f32) (i : s.Idx) : Host.sqrt x i = Ideal.sqrt (x i) := rfl

/-- A scalar constant spread over any shape reads its word everywhere. -/
theorem scalar_bcast_apply {T : Shape} (h : S_.BroadcastsInDim T ![]) (b : BitVec 32) (j : T.Idx) :
    broadcastInDim T ![] h (constant (F := Ideal) S_ .f32 b) j = Ideal.ofBits .f32 b :=
  (broadcastInDim_scalar_apply h (constant (F := Ideal) S_ .f32 b) j).trans
    (constant_apply (s := S_) (φ := .f32) b ix0)

end Cert.ReferenceIdeal.RefValue

end
-- ==== Proof.RefDist.lean ====
/-
  The reference's pairwise stage is dist: at entry (r, c) its sixteen whole-array operations compute the gate of
  ‖f1 r‖² + ‖f2 c‖² − 2 ⟨f1 r, f2 c⟩, the two norms as host sums from a zero initial value spread along a row and
  a column, the inner product as a host dot product with the transposed second array, and the logistic function
  spelt out as 1 / (1 + exp (−(−s))).
-/
import proofs.«143951_j3908420239434_2_alg».proof.Proof.RefValue

noncomputable section

open scoped BigOperators

namespace Cert.ReferenceIdeal.RefValueDist

open Cert.ReferenceIdeal Cert.ReferenceIdeal.Gen Cert.ReferenceIdeal.RefValue Idealize.ShloMosaic Idealize.ShloMosaic.ValueIdx

/-- The stage's elementwise skeleton at an index, over ANY eight arrays in the places of its constants, its two
    broadcast norms and its dot product: every operation in it acts entry by entry. -/
theorem skeleton_apply (o1 o2 two zero eps A B D : FVec Ideal S8192x8192 .f32) (i : S8192x8192.Idx) :
    Host.divf o1 (addf o2 (Host.exp (Host.negf (Host.negf (Host.sqrt
      (addf (maximumf (subf (addf A B) (mulf two D)) zero) eps)))))) i
      = Ideal.div (o1 i) (o2 i + Ideal.exp (-(-(Ideal.sqrt (max (A i + B i - two i * D i) (zero i) + eps i))))) :=
  rfl

theorem distH_eq (f1 f2 : FVec Ideal S8192x64 .f32) :
    Cert.ReferenceIdeal.RefTerm.distH (F := Ideal) f1 f2 = Cert.PairDist.dist f1 f2 := by
  funext i
  obtain ⟨r, c, rfl⟩ : ∃ (r c : Fin 8192), i = ix2 r c := ⟨i 0, i 1, eq_ix2 i⟩
  unfold Cert.ReferenceIdeal.RefTerm.distH
  refine (skeleton_apply _ _ _ _ _ _ _ _ (ix2 r c)).trans ?_
  rw [scalar_bcast_apply, scalar_bcast_apply, scalar_bcast_apply, scalar_bcast_apply, bcast_rows_apply,
    bcast_cols_apply, rowsum_apply, rowsum_apply, cross_apply]
  exact (host_logistic_eq _).trans rfl

end Cert.ReferenceIdeal.RefValueDist

end
-- ==== Proof.lean ====
/-
  Two point clouds x1, x2 : [8192, 256] are projected by one weight matrix w : [256, 64] and rectified
  (feat x w = leaky (x · w), slope 0.2), and every pair of feature rows is turned into
  logistic (− sqrt (max (‖f1 r‖² + ‖f2 c‖² − 2 ⟨f1 r, f2 c⟩) 0 + ε)) — an [8192, 8192] array.

  The kernel program does this in three tiled stages (two projections over row blocks of 1024, then the pairwise
  stage over 1024 × 2048 output tiles); the reference does it with whole-array operations. Over the extended reals
  both are the one function Cert.PairDist.whole of the three arguments:
    · a tile's matrix product into a zero accumulator and the whole-array dot product are the same finite sums,
      and rounding an operand to bf16 is the identity;
    · the kernel's rectifier tests a > 0 where the reference tests a ≥ 0: at a = 0 the other branch is 0.2 · 0 = 0;
    · the kernel takes the column norms ‖f2 c‖² as a product with a row of ones (1 · y = y), the row norms as a
      lane sum, the reference both as sums from a zero initial value;
    · the kernel's logistic of 0 − s is the reference's 1 / (1 + exp (− (− s))): the logistic's own definition.
  No step needs the inputs finite; the literals 0.2, 2 and ε are the same binary words on both sides.
-/
import proofs.«143951_j3908420239434_2_alg».proof.Defs
import proofs.«143951_j3908420239434_2_alg».proof.Proof.Gen.Kernel
import proofs.«143951_j3908420239434_2_alg».proof.Proof.Gen.Kernel.Skeleton
import proofs.«143951_j3908420239434_2_alg».proof.Proof.Gen.Kernel.Launch
import proofs.«143951_j3908420239434_2_alg».proof.Proof.Gen.Kernel.Points
import proofs.«143951_j3908420239434_2_alg».proof.Proof.Gen.Kernel.Frame
import proofs.«143951_j3908420239434_2_alg».proof.Proof.Gen.KernelIdeal
import proofs.«143951_j3908420239434_2_alg».proof.Proof.Gen.KernelIdeal.Skeleton
import proofs.«143951_j3908420239434_2_alg».proof.Proof.Gen.KernelIdeal.Launch
import proofs.«143951_j3908420239434_2_alg».proof.Proof.Gen.KernelIdeal.Points
import proofs.«143951_j3908420239434_2_alg».proof.Proof.Gen.KernelIdeal.Frame
import proofs.«143951_j3908420239434_2_alg».proof.Proof.Gen.ReferenceIdeal
import proofs.«143951_j3908420239434_2_alg».proof.Proof.Gen.Pre_finite_inputs
import proofs.«143951_j3908420239434_2_alg».proof.Proof.KernelValue
import proofs.«143951_j3908420239434_2_alg».proof.Proof.RefRun
import proofs.«143951_j3908420239434_2_alg».proof.Proof.RefValue
import proofs.«143951_j3908420239434_2_alg».proof.Proof.RefDist
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefRun.run (F := Ideal) m ρ)

/-- The one rewrite of the idealization: widening back a value just rounded to bf16 is the value. -/
theorem preserves : Cert.preserves_Kernel_KernelIdeal :=
  IdealRules.truncf_extf.statement _ .f32 .bf16

/-- The reference's composed term is the whole computation: its two rectified products are feat, its pairwise stage
    dist. -/
theorem reference_is_whole (x1 x2 : FVec Ideal Cert.ReferenceIdeal.S8192x256 .f32)
    (w : FVec Ideal Cert.ReferenceIdeal.S256x64 .f32) :
    Cert.ReferenceIdeal.RefTerm.refTerm (F := Ideal) x1 x2 w = Cert.PairDist.whole x1 x2 w := by
  unfold Cert.ReferenceIdeal.RefTerm.refTerm Cert.PairDist.whole
  rw [Cert.ReferenceIdeal.RefValue.featH_eq, Cert.ReferenceIdeal.RefValue.featH_eq,
    Cert.ReferenceIdeal.RefValueDist.distH_eq]

/-- Both idealized programs end at the whole computation of arguments that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [reference_is_whole, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
